-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : IVec S2x800000 32) (main_arg2 : FVec F S64x128 .f32) (main_arg3 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩

abbrev nBuf : Space → Nat
  | .hbm => 79
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x1, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S128x64, .f32⟩
  | .hbm, ⟨77, _⟩ => ⟨S1x64, .f32⟩
  | .hbm, ⟨78, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v55) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x1, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S128x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Payload.lean ====
/-
  The kernel body's one stored value, read at an index. The body loads a block `x` of 5000 rows of the propagated
  features, the whole transposed weight matrix `wt` (128 × 64) and the bias as a one-row matrix `b2` (1 × 64); it narrows
  `x` and `wt` to bf16 (the identity on extended reals), multiplies them on the matrix unit into a zero accumulator, and adds
  `b2` broadcast down the rows. So at row `p`, column `q` the stored value is
      Σ_{k < 128} x[p, k] · wt[k, q]  +  b2[0, q].
  The product is the library's sum over the contracted shape's index type, carried to a sum over `Fin 128` along the
  equivalence between the two; the broadcast reads its operand at row `0`.
-/
import proofs.«127806_j90752658964691_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Linear

open Cert.KernelIdeal Cert.KernelIdeal.Gen Idealize.ShloMosaic Idealize.ShloMosaic.ValueIdx

/-- The left operand's row at output `j` is `j`'s row, whatever the contraction index. -/
theorem lhsIdx_row (j : S5000x64.Idx) (u : dot_S5000x128_S128x64_S5000x64_1_0_0_1_n_n.contr.Idx) :
    (dot_S5000x128_S128x64_S5000x64_1_0_0_1_n_n.lhsIdx j u 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- The left operand's column is the contraction index. -/
theorem lhsIdx_col (j : S5000x64.Idx) (u : dot_S5000x128_S128x64_S5000x64_1_0_0_1_n_n.contr.Idx) :
    (dot_S5000x128_S128x64_S5000x64_1_0_0_1_n_n.lhsIdx j u 1).val = (u ⟨0, by decide⟩).val :=
  dot_S5000x128_S128x64_S5000x64_1_0_0_1_n_n.lhsIdx_val_of_single rfl j u
/-- The right operand's row is the contraction index. -/
theorem rhsIdx_row (j : S5000x64.Idx) (u : dot_S5000x128_S128x64_S5000x64_1_0_0_1_n_n.contr.Idx) :
    (dot_S5000x128_S128x64_S5000x64_1_0_0_1_n_n.rhsIdx j u 0).val = (u ⟨0, by decide⟩).val :=
  dot_S5000x128_S128x64_S5000x64_1_0_0_1_n_n.rhsIdx_val_of_single rfl j u
/-- The right operand's column at output `j` is `j`'s column. -/
theorem rhsIdx_col (j : S5000x64.Idx) (u : dot_S5000x128_S128x64_S5000x64_1_0_0_1_n_n.contr.Idx) :
    (dot_S5000x128_S128x64_S5000x64_1_0_0_1_n_n.rhsIdx j u 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The product into the zero accumulator, at `(p, q)`: the sum over `k` of `x[p, k] · wt[k, q]`. -/
theorem product_at (x : FVec Ideal S5000x128 .bf16) (wt : FVec Ideal S128x64 .bf16) (p : Fin 5000) (q : Fin 64) :
    matmul dot_S5000x128_S128x64_S5000x64_1_0_0_1_n_n none x wt (constant (F := Ideal) S5000x64 .f32 0x00000000#32) (ix2 p q)
      = ∑ k : Fin 128, x (ix2 p k) * wt (ix2 k q) := by
  have h := Ideal.matmul_constant_zero_apply dot_S5000x128_S128x64_S5000x64_1_0_0_1_n_n none x wt (ix2 p q)
  refine h.trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k := funext fun a => Fin.ext (by
    match a with
    | ⟨0, _⟩ => exact lhsIdx_row _ _
    | ⟨1, _⟩ => exact (lhsIdx_col _ _).trans hk)
  have er : dot_S5000x128_S128x64_S5000x64_1_0_0_1_n_n.rhsIdx (ix2 p q)
      ((contrEquiv1 dot_S5000x128_S128x64_S5000x64_1_0_0_1_n_n 128 rfl rfl).symm k) = ix2 k q := funext fun a => Fin.ext (by
    match a with
    | ⟨0, _⟩ => exact (rhsIdx_row _ _).trans hk
    | ⟨1, _⟩ => exact rhsIdx_col _ _)
  rw [el, er]

/-- The bias row broadcast down 5000 rows, at `(p, q)`, is the row's entry at column `q`. -/
theorem bias_at (b2 : FVec Ideal S1x64 .f32) (p : Fin 5000) (q : Fin 64) :
    broadcastTo S5000x64 b2 broadcasts_S1x64_S5000x64 (ix2 p q) = b2 (ix2 (0 : Fin 1) q) :=
  broadcastTo_apply b2 broadcasts_S1x64_S5000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- THE STORED VALUE at row `p`, column `q` of the block. -/
theorem payload_at (x : Vec Ideal S5000x128 .f32) (wt : Vec Ideal S128x64 .f32) (b2 : Vec Ideal S1x64 .f32)
    (p : Fin 5000) (q : Fin 64) :
    k0_pay1 (F := Ideal) x wt b2 (ix2 p q) = (∑ k : Fin 128, x (ix2 p k) * wt (ix2 k q)) + b2 (ix2 (0 : Fin 1) q) := by
  unfold k0_pay1
  rw [shapeCast_self, shapeCast_self, shapeCast_self]
  refine (addf_apply _ _ _).trans ?_
  rw [product_at, bias_at]
  rfl

end Cert.Linear

end
-- ==== Proof.Spec.lean ====
/-
  The linear layer as ONE function of plain arrays of extended reals. Entry `(r, q)` of the result is
      Σ_{k < 128} xp[r, k] · w[q, k]  +  b[q]
  — row `r` of the propagated features against row `q` of the weight matrix, plus the bias of column `q`.
  It is stated in two arrangements of the same numbers: with the weights and the bias as the arguments give them
  (`w : 64 × 128`, `b : 64`: jnp's `x @ W.T + b`), and with the weights already transposed and the bias a one-row matrix
  (`wt : 128 × 64`, `b2 : 1 × 64`: what the kernel's body loads). The two agree as soon as `wt[k, q] = w[q, k]` and
  `b2[0, q] = b[q]`: the summands are rewritten one by one, so no law of the extended reals is used — in particular nothing
  that would need the entries to be finite.
-/
import Idealize.ShloMosaic.PureOps.Ideal
import Idealize.ShloMosaic.Lib.ValueIdx

noncomputable section

namespace Cert.Linear

open Idealize.ShloMosaic Idealize.ShloMosaic.ValueIdx

/-- Entry `(r, q)` of `xp · wᵀ + b`, the weights as given. -/
def affineAt (xp : (⟨2, ![50000, 128]⟩ : Shape).Idx → EReal) (w : (⟨2, ![64, 128]⟩ : Shape).Idx → EReal)
    (b : (⟨1, ![64]⟩ : Shape).Idx → EReal) (r : Fin 50000) (q : Fin 64) : EReal :=
  (∑ k : Fin 128, xp (ix2 r k) * w (ix2 q k)) + b (ix1 q)

/-- `xp · wᵀ + b` as an array: the entry at an index is `affineAt` at its two coordinates. -/
def affine (xp : (⟨2, ![50000, 128]⟩ : Shape).Idx → EReal) (w : (⟨2, ![64, 128]⟩ : Shape).Idx → EReal)
    (b : (⟨1, ![64]⟩ : Shape).Idx → EReal) : (⟨2, ![50000, 64]⟩ : Shape).Idx → EReal :=
  fun i => affineAt xp w b ⟨(i 0).val, idx2_lt0 i⟩ ⟨(i 1).val, idx2_lt1 i⟩

/-- Entry `(r, q)` of `xp · wt + b2`, the weights transposed and the bias a one-row matrix. -/
def affineTAt (xp : (⟨2, ![50000, 128]⟩ : Shape).Idx → EReal) (wt : (⟨2, ![128, 64]⟩ : Shape).Idx → EReal)
    (b2 : (⟨2, ![1, 64]⟩ : Shape).Idx → EReal) (r : Fin 50000) (q : Fin 64) : EReal :=
  (∑ k : Fin 128, xp (ix2 r k) * wt (ix2 k q)) + b2 (ix2 (0 : Fin 1) q)

/-- `xp · wt + b2` as an array. -/
def affineT (xp : (⟨2, ![50000, 128]⟩ : Shape).Idx → EReal) (wt : (⟨2, ![128, 64]⟩ : Shape).Idx → EReal)
    (b2 : (⟨2, ![1, 64]⟩ : Shape).Idx → EReal) : (⟨2, ![50000, 64]⟩ : Shape).Idx → EReal :=
  fun i => affineTAt xp wt b2 ⟨(i 0).val, idx2_lt0 i⟩ ⟨(i 1).val, idx2_lt1 i⟩

/-- `affineT` at an index whose two coordinates are known. -/
theorem affineT_at (xp : (⟨2, ![50000, 128]⟩ : Shape).Idx → EReal) (wt : (⟨2, ![128, 64]⟩ : Shape).Idx → EReal)
    (b2 : (⟨2, ![1, 64]⟩ : Shape).Idx → EReal) (i : (⟨2, ![50000, 64]⟩ : Shape).Idx) (r : Fin 50000) (q : Fin 64)
    (h0 : (i 0).val = r.val) (h1 : (i 1).val = q.val) : affineT xp wt b2 i = affineTAt xp wt b2 r q := by
  unfold affineT
  have er : (⟨(i 0).val, idx2_lt0 i⟩ : Fin 50000) = r := Fin.ext h0
  have eq : (⟨(i 1).val, idx2_lt1 i⟩ : Fin 64) = q := Fin.ext h1
  rw [er, eq]

/-- The two arrangements are one function when `wt` is the transpose of `w` and `b2`'s one row is `b`. -/
theorem affineT_eq_affine (xp : (⟨2, ![50000, 128]⟩ : Shape).Idx → EReal) (wt : (⟨2, ![128, 64]⟩ : Shape).Idx → EReal)
    (b2 : (⟨2, ![1, 64]⟩ : Shape).Idx → EReal) (w : (⟨2, ![64, 128]⟩ : Shape).Idx → EReal) (b : (⟨1, ![64]⟩ : Shape).Idx → EReal)
    (hw : ∀ (k : Fin 128) (q : Fin 64), wt (ix2 k q) = w (ix2 q k)) (hb : ∀ q : Fin 64, b2 (ix2 (0 : Fin 1) q) = b (ix1 q)) :
    affineT xp wt b2 = affine xp w b := by
  funext i
  unfold affineT affine affineTAt affineAt
  rw [hb]
  exact congrArg (· + _) (Finset.sum_congr rfl fun k _ => by rw [hw])

end Cert.Linear

end
-- ==== Proof.WholeArray.lean ====
/-
  From the blocks to the whole array. The grid has ten points. Point `t` stages rows `5000·t … 5000·t + 4999` of the
  propagated features (window 0), the whole transposed weight matrix (window 1) and the one-row bias (window 2), and
  writes back rows `5000·t … 5000·t + 4999` of the result (window 3). So what point `t` writes back at row `p`, column `q`
  of its block is the stored value of the body on those blocks, which is entry `(5000·t + p, q)` of
  `affineT xp wt b2` for the three arrays `xp`, `wt`, `b2` as the region finds them: the block written back is the block of
  that one whole-array function. Every row `r` lies in the block of point `r / 5000`, so the ten blocks cover the array and
  after the run the result array IS `affineT xp wt b2`.
-/
import proofs.«127806_j90752658964691_1_alg».proof.Proof.Gen.KernelIdeal.Value
import proofs.«127806_j90752658964691_1_alg».proof.Proof.Payload
import proofs.«127806_j90752658964691_1_alg».proof.Proof.Spec

set_option maxRecDepth 16384

noncomputable section

namespace Cert.Linear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin_zero : (![0, 0] : Fin 2 → Nat) = fun _ => 0 := funext fun a => by fin_cases a <;> rfl

/-- The printed index maps, decided over the ten grid points: the features' and the result's blocks move down the rows with
    the point, the weights' and the bias's stay at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are ten points. -/
theorem point_lt (t : Fin cfg0.N) : t.val < 10 := lt_of_lt_of_eq t.isLt N_0

/-- THE STORED VALUE OF ONE POINT, over plain variables: if the features' block `x` is rows `5000·T + p` of `xp`, and the
    other two blocks are the whole arrays `wt` and `b2`, then the stored value at a block index `y` is `affineT xp wt b2` at
    the array index `i` with row `5000·T + y₀` and column `y₁`. -/
theorem point_value (xp : S50000x128.Idx → EReal) (wt : S128x64.Idx → EReal) (b2 : S1x64.Idx → EReal)
    (x : Vec Ideal S5000x128 .f32) (wt' : Vec Ideal S128x64 .f32) (b2' : Vec Ideal S1x64 .f32) (T : Nat) (hT : T < 10)
    (hx : ∀ (p : Fin 5000) (k : Fin 128), x (ix2 p k) = xp (ix2 (⟨T * 5000 + p.val, by omega⟩ : Fin 50000) k))
    (hw : wt' = wt) (hb : b2' = b2)
    (y : S5000x64.Idx) (i : S50000x64.Idx) (h0 : (i 0).val = T * 5000 + (y 0).val) (h1 : (i 1).val = (y 1).val) :
    k0_pay1 (F := Ideal) x wt' b2' y = affineT xp wt b2 i := by
  subst hw hb
  obtain ⟨p, q, rfl⟩ : ∃ (p : Fin 5000) (q : Fin 64), y = ix2 p q := ⟨y 0, y 1, eq_ix2 y⟩
  have h0' : (i 0).val = (⟨T * 5000 + p.val, by omega⟩ : Fin 50000).val := h0
  have h1' : (i 1).val = q.val := h1
  rw [payload_at, affineT_at xp wt' b2' i _ q h0' h1']
  unfold affineTAt
  exact congrArg (· + _) (Finset.sum_congr rfl fun k _ => by rw [hx])

/-! ## One point, over ANY contents of the three staged arrays

The block reads and the value written back are facts about the windows' rectangles and the body's arithmetic; they hold of
any three arrays `XP`, `WT`, `B2`, and are proved of variables so that nothing in them depends on how the region's arrays
were computed. -/

section AnyArrays

variable (XP : (⟨S50000x128, .f32⟩ : BufTy).Contents (Elt Ideal)) (WT : (⟨S128x64, .f32⟩ : BufTy).Contents (Elt Ideal))
  (B2 : (⟨S1x64, .f32⟩ : BufTy).Contents (Elt Ideal))

/-- Window 0's block at point `t` is rows `5000·t + p` of its array. -/
theorem features_read (t : Fin cfg0.N) (p : Fin 5000) (k : Fin 128) (hr : t.val * 5000 + p.val < 50000) :
    ((cfg0.win 0).blk t).view.read (Elt Ideal) XP (ix2 p k) = XP (ix2 (⟨t.val * 5000 + p.val, hr⟩ : Fin 50000) k) := by
  obtain ⟨e0, e1, -⟩ := block_indices t
  have h : ((cfg0.win 0).blk t).view.emb (ix2 p k) = ix2 (⟨t.val * 5000 + p.val, hr⟩ : Fin 50000) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  show XP (((cfg0.win 0).blk t).view.emb (ix2 p k)) = _
  rw [h]

/-- Window 1's block at every point is its whole array. -/
theorem weights_read (t : Fin cfg0.N) : ((cfg0.win 1).blk t).view.read (Elt Ideal) WT = WT := by
  obtain ⟨-, -, e2, e3, -⟩ := block_indices t
  funext y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 64 + 1 * (y 1).val = (y 1).val; omega
  show WT (((cfg0.win 1).blk t).view.emb y) = _
  rw [h]

/-- Window 2's block at every point is its whole array. -/
theorem bias_read (t : Fin cfg0.N) : ((cfg0.win 2).blk t).view.read (Elt Ideal) B2 = B2 := by
  obtain ⟨-, -, -, -, e4, e5, -⟩ := block_indices t
  funext y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  show B2 (((cfg0.win 2).blk t).view.emb y) = _
  rw [h]

/-- WHAT POINT `t` LEAVES in the result's staging buffer, from the three blocks it read, is block `t` of `affineT XP WT B2`. -/
theorem block_written (t : Fin cfg0.N) :
    (cfg0.win 3).cut (grid0.coords t)
        (out0_3 (((cfg0.win 0).blk t).view.read (Elt Ideal) XP) (((cfg0.win 1).blk t).view.read (Elt Ideal) WT)
          (((cfg0.win 2).blk t).view.read (Elt Ideal) B2))
      = ((cfg0.win 3).blk t).view.read (Elt Ideal) (affineT XP WT B2) := by
  unfold out0_3
  rw [View.canon_unit_zero origin_zero]
  simp only [View.ld_unit_zero (S := S5000x128) origin_zero, View.ld_unit_zero (S := S128x64) origin_zero,
    View.ld_unit_zero (S := S1x64) origin_zero]
  obtain ⟨-, -, -, -, -, -, e6, e7⟩ := block_indices t
  have hT := point_lt t
  funext j
  show k0_pay1 (F := Ideal) (((cfg0.win 0).blk t).view.read (Elt Ideal) XP) (((cfg0.win 1).blk t).view.read (Elt Ideal) WT)
      (((cfg0.win 2).blk t).view.read (Elt Ideal) B2) j
    = affineT XP WT B2 (((cfg0.win 3).blk t).view.emb j)
  refine point_value XP WT B2 (((cfg0.win 0).blk t).view.read (Elt Ideal) XP) (((cfg0.win 1).blk t).view.read (Elt Ideal) WT)
    (((cfg0.win 2).blk t).view.read (Elt Ideal) B2) t.val hT
    (fun p k => features_read XP t p k (by have := p.isLt; omega)) (weights_read WT t) (bias_read B2 t) j
    (((cfg0.win 3).blk t).view.emb j) ?_ ?_
  · show win0_3.index t (0 : Fin 2) * 5000 + 1 * (j 0).val = t.val * 5000 + (j 0).val; omega
  · show win0_3.index t (1 : Fin 2) * 64 + 1 * (j 1).val = (j 1).val; omega

end AnyArrays

/-! ## The region's own arrays -/

/-- WHAT POINT `t` WRITES BACK is block `t` of `affineT` of the three arrays as the region finds them. -/
theorem flushed_eq (c : Dev nD) (t : Fin cfg0.N) :
    (dats m 0 c).flushed 3 t
      = ((cfg0.win 3).blk t).view.read (Elt Ideal)
          (affineT (V m c (Pipeline.arrRef spec0 0)) (V m c (Pipeline.arrRef spec0 1)) (V m c (Pipeline.arrRef spec0 2))) := by
  rw [Value.flushed3]
  unfold iblk
  exact block_written (V m c (Pipeline.arrRef spec0 0)) (V m c (Pipeline.arrRef spec0 1)) (V m c (Pipeline.arrRef spec0 2)) t

/-- An index of the result array is in point `t`'s block iff each coordinate is in the block's range on its axis. -/
theorem mem_block (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v58).slice (win0_3.rect t)).set ↔ _
  rw [View.set_slice_whole, Rect.mem_set_unit]
  exact Iff.rfl

/-- THE COVER: row `r` is in the block of point `r / 5000`, and every point writes its block back. -/
theorem covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- THE RESULT ARRAY after the run is `affineT` of the three staged arrays as the region finds them. -/
theorem result_array (c : Dev nD) :
    (dats m 0 c).arrAt 3 cfg0.N = affineT (V m c (Pipeline.arrRef spec0 0)) (V m c (Pipeline.arrRef spec0 1)) (V m c (Pipeline.arrRef spec0 2)) :=
  (dats m 0 c).arrAt_eq_of_cover 3 (affineT (V m c (Pipeline.arrRef spec0 0)) (V m c (Pipeline.arrRef spec0 1)) (V m c (Pipeline.arrRef spec0 2)))
    (fun t _ => flushed_eq m c t) covered

/-- The kernel's run re-posted: the result array at `affineT` of the staged arrays, the arguments unchanged. -/
theorem kernel_run : θ_run defs (onTc (τ := τ) (main (F := Ideal))) ⟨m, fun _ => 0, ρ⟩ fun r => ∀ c : Dev nD,
      r.2.mem ((c : Thread nD τ).loc main_v58) = affineT (V m c (Pipeline.arrRef spec0 0)) (V m c (Pipeline.arrRef spec0 1)) (V m c (Pipeline.arrRef spec0 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (Value.run_blocks m ρ)

end Cert.Linear

end
-- ==== Proof.StagedArrays.lean ====
/-
  What the kernel's one region finds in the three arrays it stages. Before the region the kernel's program runs host
  operations on the arguments: the symmetric-normalised two-hop propagation of the features along the edge list (degrees by
  a scatter-add of ones, their inverse square roots, two rounds of gather · scale · scatter-add), the transpose of the
  weights, and the bias reshaped to one row. The reference runs the SAME operations, in the same order and with the same
  literals, before its own last four. So the staged features array is the reference's propagation stage `val_main_v55` of the
  first two arguments — the chain is carried as that one function and never opened —, the staged weights are the transpose
  of the third argument and the staged bias is the fourth argument as a one-row matrix. Each is read off the fold of the host
  operations over the launch memory, operation by operation.
-/
import proofs.«127806_j90752658964691_1_alg».proof.Proof.Gen.KernelIdeal.Frame
import proofs.«127806_j90752658964691_1_alg».proof.Proof.RefReadP
import Idealize.ShloMosaic.Lib.StableHlo.Run

noncomputable section

namespace Cert.Linear

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

/-- Two arrays joined along an axis, with the two arrays as plain arguments: the same function as the two-operand
    `concatenate`, in a form where each operand can be rewritten by itself (in `concatenate` the side condition's type mentions
    the list of operands). -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = join2 t a s₁ s₂ h x y := rfl

/-! ## The outlined `where`

The inverse square roots of the degrees are selected (`where deg > 0`) by an outlined function whose three operations —
a conversion that is the identity, the broadcast of the zero it converts, and the selection — name their buffers by typed
references: each operand and result passes through a transport along the equation "this buffer's type is the value's type".
For these buffers the equation holds by computation, so each transport is the identity and each of the three is the plain
operation on the same buffers with the same function. -/

theorem where_convert :
    (StableHlo.TRef.unary (τ := Cert.KernelIdeal.τ) (Val := Elt Ideal) (TRef.of (T := ⟨Cert.KernelIdeal.S_, .f32⟩) Cert.KernelIdeal.main_cst_2)
        (TRef.of (T := ⟨Cert.KernelIdeal.S_, .f32⟩) Cert.KernelIdeal.main_call0_v0) id)
      = StableHlo.unary (τ := Cert.KernelIdeal.τ) (Val := Elt Ideal) Cert.KernelIdeal.main_cst_2 Cert.KernelIdeal.main_call0_v0
          (id : (⟨Cert.KernelIdeal.S_, .f32⟩ : BufTy).Contents (Elt Ideal) → (⟨Cert.KernelIdeal.S_, .f32⟩ : BufTy).Contents (Elt Ideal)) := rfl

theorem where_broadcast :
    (StableHlo.TRef.unary (τ := Cert.KernelIdeal.τ) (Val := Elt Ideal) (TRef.of (T := ⟨Cert.KernelIdeal.S_, .f32⟩) Cert.KernelIdeal.main_call0_v0)
        (TRef.of (T := ⟨Cert.KernelIdeal.S50000, .f32⟩) Cert.KernelIdeal.main_call0_v1) (broadcastInDim Cert.KernelIdeal.S50000 ![] Cert.KernelIdeal.Facts₀.bcast_S_S50000))
      = StableHlo.unary (τ := Cert.KernelIdeal.τ) (Val := Elt Ideal) Cert.KernelIdeal.main_call0_v0 Cert.KernelIdeal.main_call0_v1
          (broadcastInDim Cert.KernelIdeal.S50000 ![] Cert.KernelIdeal.Facts₀.bcast_S_S50000 :
            (⟨Cert.KernelIdeal.S_, .f32⟩ : BufTy).Contents (Elt Ideal) → (⟨Cert.KernelIdeal.S50000, .f32⟩ : BufTy).Contents (Elt Ideal)) := rfl

theorem where_select :
    (StableHlo.TRef.ternary (τ := Cert.KernelIdeal.τ) (Val := Elt Ideal) (TRef.of (T := ⟨Cert.KernelIdeal.S50000, .i1⟩) Cert.KernelIdeal.main_v12)
        (TRef.of (T := ⟨Cert.KernelIdeal.S50000, .f32⟩) Cert.KernelIdeal.main_v13) (TRef.of (T := ⟨Cert.KernelIdeal.S50000, .f32⟩) Cert.KernelIdeal.main_call0_v1)
        (TRef.of (T := ⟨Cert.KernelIdeal.S50000, .f32⟩) Cert.KernelIdeal.main_v14) select)
      = StableHlo.ternary (τ := Cert.KernelIdeal.τ) (Val := Elt Ideal) Cert.KernelIdeal.main_v12 Cert.KernelIdeal.main_v13 Cert.KernelIdeal.main_call0_v1 Cert.KernelIdeal.main_v14
          (select : (⟨Cert.KernelIdeal.S50000, .i1⟩ : BufTy).Contents (Elt Ideal) → (⟨Cert.KernelIdeal.S50000, .f32⟩ : BufTy).Contents (Elt Ideal)
            → (⟨Cert.KernelIdeal.S50000, .f32⟩ : BufTy).Contents (Elt Ideal) → (⟨Cert.KernelIdeal.S50000, .f32⟩ : BufTy).Contents (Elt Ideal)) := rfl

set_option maxRecDepth 65536 in
set_option maxHeartbeats 16000000 in
/-- The staged features: the reference's propagation stage of the features and the edge list. -/
theorem staged_features (c : Dev Cert.KernelIdeal.nD) :
    (Cert.KernelIdeal.Gen.V m c Cert.KernelIdeal.main_v55 : (⟨Cert.KernelIdeal.S50000x128, .f32⟩ : BufTy).Contents (Elt Ideal))
      = Cert.ReferenceIdeal.ReadP.val_main_v55 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Gen.V]
  simp only [Cert.KernelIdeal.Gen.hostOps0, Cert.KernelIdeal.Gen.hostOps0_1, Cert.KernelIdeal.Gen.hostOps0_2,
    List.flatten_cons, List.flatten_nil, List.append_nil, List.cons_append, List.nil_append]
  rw [where_convert, where_broadcast, where_select]
  after_results_simp
  simp only [concatenate_pair]
  after_results_simp
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2, Cert.ReferenceIdeal.ReadP.val_main_call0_v0, Cert.ReferenceIdeal.ReadP.val_main_call0_v1, Cert.ReferenceIdeal.ReadP.val_main_v14, Cert.ReferenceIdeal.ReadP.val_main_c, Cert.ReferenceIdeal.ReadP.val_main_v15, Cert.ReferenceIdeal.ReadP.val_main_v16, Cert.ReferenceIdeal.ReadP.val_main_c_3, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_c_4, Cert.ReferenceIdeal.ReadP.val_main_v22, Cert.ReferenceIdeal.ReadP.val_main_v23, Cert.ReferenceIdeal.ReadP.val_main_c_5, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_c_6, Cert.ReferenceIdeal.ReadP.val_main_v30, Cert.ReferenceIdeal.ReadP.val_main_v31, Cert.ReferenceIdeal.ReadP.val_main_c_7, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_cst_8, Cert.ReferenceIdeal.ReadP.val_main_v40, Cert.ReferenceIdeal.ReadP.val_main_v41, Cert.ReferenceIdeal.ReadP.val_main_v42, Cert.ReferenceIdeal.ReadP.val_main_c_9, Cert.ReferenceIdeal.ReadP.val_main_v43, Cert.ReferenceIdeal.ReadP.val_main_v44, Cert.ReferenceIdeal.ReadP.val_main_c_10, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_cst_11, Cert.ReferenceIdeal.ReadP.val_main_v53, Cert.ReferenceIdeal.ReadP.val_main_v54, Cert.ReferenceIdeal.ReadP.val_main_v55]
  rfl

set_option maxRecDepth 16384 in
set_option maxHeartbeats 16000000 in
/-- The staged weights: the third argument transposed. -/
theorem staged_weights (c : Dev Cert.KernelIdeal.nD) :
    (Cert.KernelIdeal.Gen.V m c Cert.KernelIdeal.main_v56 : (⟨Cert.KernelIdeal.S128x64, .f32⟩ : BufTy).Contents (Elt Ideal))
      = transpose Cert.KernelIdeal.S128x64 [1, 0]
          (m ((c.tc : Thread Cert.KernelIdeal.nD Cert.KernelIdeal.τ).loc Cert.KernelIdeal.main_arg2))
          Cert.KernelIdeal.Facts₀.transposes_S64x128_S128x64_1_0 := by
  dsimp only [Cert.KernelIdeal.Gen.V]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

set_option maxRecDepth 16384 in
set_option maxHeartbeats 16000000 in
/-- The staged bias: the fourth argument as a one-row matrix. -/
theorem staged_bias (c : Dev Cert.KernelIdeal.nD) :
    (Cert.KernelIdeal.Gen.V m c Cert.KernelIdeal.main_v57 : (⟨Cert.KernelIdeal.S1x64, .f32⟩ : BufTy).Contents (Elt Ideal))
      = shapeCast Cert.KernelIdeal.S1x64
          (m ((c.tc : Thread Cert.KernelIdeal.nD Cert.KernelIdeal.τ).loc Cert.KernelIdeal.main_arg3))
          Cert.KernelIdeal.Facts₀.shapeCasts_S64_S1x64 := by
  dsimp only [Cert.KernelIdeal.Gen.V]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp <;> rfl

end Cert.Linear

end
-- ==== Proof.KernelValue.lean ====
/-
  The kernel's result in terms of the arguments. After the run the result array is `affineT xp wt b2` of the three arrays
  the region stages; those are the propagation stage of the first two arguments, the transpose of the weights and the bias as
  a one-row matrix. The transpose read at `(k, q)` is the weights at `(q, k)`, and the one-row matrix read at `(0, q)` is the
  bias at `q` (both have the same row-major position), so the result is `affine xp w b`: the function the reference computes.
-/
import proofs.«127806_j90752658964691_1_alg».proof.Proof.WholeArray
import proofs.«127806_j90752658964691_1_alg».proof.Proof.StagedArrays

noncomputable section

namespace Cert.Linear

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The transposed weights at `(k, q)` are the weights at `(q, k)`. -/
theorem transposed_at (w : (⟨S64x128, .f32⟩ : BufTy).Contents (Elt Ideal)) (k : Fin 128) (q : Fin 64) :
    transpose S128x64 [1, 0] w Facts₀.transposes_S64x128_S128x64_1_0 (ix2 k q) = w (ix2 q k) :=
  transpose_apply [1, 0] w Facts₀.transposes_S64x128_S128x64_1_0 (ix2 k q) (ix2 q k) (fun b => match b with
    | ⟨0, _⟩ => rfl
    | ⟨1, _⟩ => rfl)

/-- The bias as a one-row matrix, at `(0, q)`, is the bias at `q`: the two indices have the same row-major position. -/
theorem bias_row_at (b : (⟨S64, .f32⟩ : BufTy).Contents (Elt Ideal)) (q : Fin 64) :
    shapeCast S1x64 b Facts₀.shapeCasts_S64_S1x64 (ix2 (0 : Fin 1) q) = b (ix1 q) :=
  shapeCast_apply b Facts₀.shapeCasts_S64_S1x64 (ix2 (0 : Fin 1) q) (ix1 q)
    (by rewrite [Shape.rowMajor_val_one, Shape.rowMajor_val_two]; show q.val = 0 * 64 + q.val; omega)

/-- The function of the staged arrays is the function of the arguments. -/
theorem staged_value (c : Dev nD) :
    affineT (V m c (Pipeline.arrRef spec0 0)) (V m c (Pipeline.arrRef spec0 1)) (V m c (Pipeline.arrRef spec0 2))
      = affine (Cert.ReferenceIdeal.ReadP.val_main_v55 (F := Ideal) (m ((c.tc : Thread nD τ).loc main_arg0))
          (m ((c.tc : Thread nD τ).loc main_arg1))) (m ((c.tc : Thread nD τ).loc main_arg2)) (m ((c.tc : Thread nD τ).loc main_arg3)) := by
  show affineT (V m c main_v55) (V m c main_v56) (V m c main_v57) = _
  rw [staged_features, staged_weights, staged_bias]
  exact affineT_eq_affine _ _ _ _ _ (transposed_at _) (bias_row_at _)

/-- THE KERNEL'S RUN: the result array ends at `affine` of the propagation stage, the weights and the bias; the arguments are
    unchanged. -/
theorem kernel_value_run : θ_run defs (onTc (τ := τ) (main (F := Ideal))) ⟨m, fun _ => 0, ρ⟩ fun r => ∀ c : Dev nD,
      r.2.mem ((c : Thread nD τ).loc main_v58)
        = affine (Cert.ReferenceIdeal.ReadP.val_main_v55 (F := Ideal) (m ((c.tc : Thread nD τ).loc main_arg0))
            (m ((c.tc : Thread nD τ).loc main_arg1))) (m ((c.tc : Thread nD τ).loc main_arg2)) (m ((c.tc : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (staged_value m c), (h c).2⟩) (kernel_run m ρ)

end Cert.Linear

end
-- ==== Proof.RefAffine.lean ====
/-
  The reference's result is the linear layer of its own propagated features. Its last four operations are a
  `dot_general` of the propagated features `xp` (50000 × 128) with the transposed weights, contracting `xp`'s columns with the
  transpose's rows, then the bias broadcast first to one row and then down all rows, then their sum. Read at `(r, q)`:
  the contraction is the sum over `k` of `xp[r, k]` times the transpose's `[k, q]`, which is `w[q, k]`; the broadcast bias is
  `b[q]`. That is `Cert.Linear.affine xp w b` at `(r, q)`. The propagation itself — gathers and scatter-adds along the
  edge list — is never opened: it stays the one function `val_main_v55` of the first two arguments.
-/
import proofs.«127806_j90752658964691_1_alg».proof.Proof.RefReadP
import proofs.«127806_j90752658964691_1_alg».proof.Proof.Spec

noncomputable section

namespace Cert.Linear

open Cert.ReferenceIdeal Cert.ReferenceIdeal.Gen Cert.ReferenceIdeal.ReadP Idealize.ShloMosaic Idealize.ShloMosaic.ValueIdx

/-- The reference's last stage is `affine` of its propagation stage, the weights and the bias. -/
theorem reference_eq (x0 : (⟨S50000x128, .f32⟩ : BufTy).Contents (Elt Ideal)) (x1 : (⟨S2x800000, .i32⟩ : BufTy).Contents (Elt Ideal))
    (x2 : (⟨S64x128, .f32⟩ : BufTy).Contents (Elt Ideal)) (x3 : (⟨S64, .f32⟩ : BufTy).Contents (Elt Ideal)) :
    val_main_v60 (F := Ideal) x0 x1 x2 x3 = affine (val_main_v55 (F := Ideal) x0 x1) x2 x3 := by
  funext i
  have e1 : ∀ k : Fin 128, lidx_main_v57 i k = ix2 (⟨(i 0).val, idx2_lt0 i⟩ : Fin 50000) k := fun k =>
    funext fun a => Fin.ext (by match a with | ⟨0, _⟩ => rfl | ⟨1, _⟩ => rfl)
  have e2 : ∀ k : Fin 128, idx_main_v56 (ridx_main_v57 i k) = ix2 (⟨(i 1).val, idx2_lt1 i⟩ : Fin 64) k := fun k =>
    funext fun a => Fin.ext (by match a with | ⟨0, _⟩ => rfl | ⟨1, _⟩ => rfl)
  have e3 : idx_main_v58 (idx_main_v59 i) = ix1 (⟨(i 1).val, idx2_lt1 i⟩ : Fin 64) :=
    funext fun a => Fin.ext (by match a with | ⟨0, _⟩ => rfl)
  rw [val_main_v60_apply, val_main_v57_apply, val_main_v59_apply, val_main_v58_apply]
  simp only [val_main_v56_apply, e1, e2, e3]
  rfl

end Cert.Linear

end
-- ==== Proof.lean ====
/-
  The certificate of the two-hop graph propagation followed by a linear layer, `out = P(x, edges) · Wᵀ + b`.

  Both programs first run the same host operations `P` on the features and the edge list (self-loops appended, in-degrees by a
  scatter-add of ones, their inverse square roots where positive, and two rounds of gather · scale · scatter-add), and then apply
  the linear layer to the propagated features `xp = P(x, edges)`:
    * the reference by one `dot_general` of `xp` with the transposed weights, plus the bias broadcast over the rows;
    * the kernel by a grid of ten points, point `t` taking rows `5000·t … 5000·t + 4999` of `xp`, narrowing them and the
      transposed weights to bf16, multiplying on the matrix unit into a zero accumulator and adding the one-row bias.
  Over the extended reals narrowing is the identity and both products are the plain sum over the 128 contracted columns, so
  both results are, entry by entry, `Σ_k xp[r, k] · W[q, k] + b[q]` (`Cert.Linear.affine`). The propagation `P` is never opened:
  it is the one function `val_main_v55` on both sides. Only the summands are re-indexed, so no finiteness of the inputs is
  used. The frames of the two kernel programs are the generated ones; the reference's frame is its run with the result dropped;
  the idealization rewrote no operation, so `preserves` is `True`.
-/
import proofs.«127806_j90752658964691_1_alg».proof.Defs
import proofs.«127806_j90752658964691_1_alg».proof.Proof.Gen.Kernel
import proofs.«127806_j90752658964691_1_alg».proof.Proof.Gen.Kernel.Skeleton
import proofs.«127806_j90752658964691_1_alg».proof.Proof.Gen.Kernel.Launch
import proofs.«127806_j90752658964691_1_alg».proof.Proof.Gen.Kernel.Points
import proofs.«127806_j90752658964691_1_alg».proof.Proof.Gen.Kernel.Frame
import proofs.«127806_j90752658964691_1_alg».proof.Proof.Gen.KernelIdeal
import proofs.«127806_j90752658964691_1_alg».proof.Proof.Gen.KernelIdeal.Skeleton
import proofs.«127806_j90752658964691_1_alg».proof.Proof.Gen.KernelIdeal.Launch
import proofs.«127806_j90752658964691_1_alg».proof.Proof.Gen.KernelIdeal.Points
import proofs.«127806_j90752658964691_1_alg».proof.Proof.Gen.KernelIdeal.Frame
import proofs.«127806_j90752658964691_1_alg».proof.Proof.Gen.ReferenceIdeal
import proofs.«127806_j90752658964691_1_alg».proof.Proof.Gen.Pre_finite_inputs
import proofs.«127806_j90752658964691_1_alg».proof.Proof.Gen.KernelIdeal.Value
import proofs.«127806_j90752658964691_1_alg».proof.Proof.KernelValue
import proofs.«127806_j90752658964691_1_alg».proof.Proof.RefAffine
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the result array at `affine` of the propagation stage, the weights and the bias of
    arguments that agree. -/
theorem algebraic : Cert.algebraic_KernelIdeal_ReferenceIdeal := by
  intro m ρ m' ρ' _ hagree
  refine ⟨fun c => Cert.Linear.affine
      (Cert.ReferenceIdeal.ReadP.val_main_v55 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Linear.kernel_value_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v60_eq, Cert.Linear.reference_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
